-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x1039 : Shape := ⟨3, ![64, 512, 1039]⟩
abbrev S_ : Shape := ⟨0, ![]⟩

class Facts : Prop where
  bcast_S_S64x512x1039 : S_.BroadcastsInDim S64x512x1039 (![] : Fin 0 → Fin S64x512x1039.rank)
  reducesTo_S64x512x1039_S_d0_1_2 : S64x512x1039.ReducesTo [0, 1, 2] S_
  h_S_ : 0 < S_.numel

variable [Facts]

def fn {F : FTy → Type} [FloatOps F] (main_arg0 : FVec F S64x512x1039 .f32) : IVec S_ 1 :=
  let main_v0 : FVec F S64x512x1039 .f32 := Host.absf main_arg0
  let main_cst : FVec F S_ .f32 := constant S_ .f32 0x7F800000#32
  let main_v1 : FVec F S64x512x1039 .f32 := broadcastInDim S64x512x1039 ![] bcast_S_S64x512x1039 main_cst
  let main_v2 : IVec S64x512x1039 1 := cmpf .olt main_v0 main_v1
  let main_c : IVec S_ 1 := constantI S_ 1 1#1
  let main_v3 : IVec S_ 1 := (fun x v => Host.reduce IntOp.andi x v reducesTo_S64x512x1039_S_d0_1_2 h_S_) main_v2 main_c
  main_v3
-- ==== Kernel.lean ====
abbrev S64x512x1039 : Shape := ⟨3, ![64, 512, 1039]⟩
abbrev S64x512x1369 : Shape := ⟨3, ![64, 512, 1369]⟩
abbrev S8x256x1039 : Shape := ⟨3, ![8, 256, 1039]⟩
abbrev S8x256x1369 : Shape := ⟨3, ![8, 256, 1369]⟩
abbrev S8x256x37 : Shape := ⟨3, ![8, 256, 37]⟩
abbrev S8x256x18 : Shape := ⟨3, ![8, 256, 18]⟩
abbrev S8x256x19 : Shape := ⟨3, ![8, 256, 19]⟩
abbrev S8x256x17 : Shape := ⟨3, ![8, 256, 17]⟩
abbrev S8x256x20 : Shape := ⟨3, ![8, 256, 20]⟩
abbrev S8x256x16 : Shape := ⟨3, ![8, 256, 16]⟩
abbrev S8x256x21 : Shape := ⟨3, ![8, 256, 21]⟩
abbrev S8x256x15 : Shape := ⟨3, ![8, 256, 15]⟩
abbrev S8x256x22 : Shape := ⟨3, ![8, 256, 22]⟩
abbrev S8x256x14 : Shape := ⟨3, ![8, 256, 14]⟩
abbrev S8x256x23 : Shape := ⟨3, ![8, 256, 23]⟩
abbrev S8x256x13 : Shape := ⟨3, ![8, 256, 13]⟩
abbrev S8x256x24 : Shape := ⟨3, ![8, 256, 24]⟩
abbrev S8x256x12 : Shape := ⟨3, ![8, 256, 12]⟩
abbrev S8x256x25 : Shape := ⟨3, ![8, 256, 25]⟩
abbrev S8x256x11 : Shape := ⟨3, ![8, 256, 11]⟩
abbrev S8x256x26 : Shape := ⟨3, ![8, 256, 26]⟩
abbrev S8x256x10 : Shape := ⟨3, ![8, 256, 10]⟩
abbrev S8x256x27 : Shape := ⟨3, ![8, 256, 27]⟩
abbrev S8x256x9 : Shape := ⟨3, ![8, 256, 9]⟩
abbrev S8x256x28 : Shape := ⟨3, ![8, 256, 28]⟩
abbrev S8x256x8 : Shape := ⟨3, ![8, 256, 8]⟩
abbrev S8x256x29 : Shape := ⟨3, ![8, 256, 29]⟩
abbrev S8x256x7 : Shape := ⟨3, ![8, 256, 7]⟩
abbrev S8x256x30 : Shape := ⟨3, ![8, 256, 30]⟩
abbrev S8x256x6 : Shape := ⟨3, ![8, 256, 6]⟩
abbrev S8x256x31 : Shape := ⟨3, ![8, 256, 31]⟩
abbrev S8x256x5 : Shape := ⟨3, ![8, 256, 5]⟩
abbrev S8x256x32 : Shape := ⟨3, ![8, 256, 32]⟩
abbrev S8x256x4 : Shape := ⟨3, ![8, 256, 4]⟩
abbrev S8x256x33 : Shape := ⟨3, ![8, 256, 33]⟩
abbrev S8x256x3 : Shape := ⟨3, ![8, 256, 3]⟩
abbrev S8x256x34 : Shape := ⟨3, ![8, 256, 34]⟩
abbrev S8x256x2 : Shape := ⟨3, ![8, 256, 2]⟩
abbrev S8x256x35 : Shape := ⟨3, ![8, 256, 35]⟩
abbrev S8x256x1 : Shape := ⟨3, ![8, 256, 1]⟩
abbrev S8x256x36 : Shape := ⟨3, ![8, 256, 36]⟩
abbrev S64x512x37x37 : Shape := ⟨4, ![64, 512, 37, 37]⟩

abbrev nBuf : Space → Nat
  | .hbm => 3
  | .vmem => 4
  | .smem => 0
  | _ => 0

abbrev bufTy : (tb : Table) → Fin (tcTables nBuf tb) → BufTy
  | .hbm, ⟨0, _⟩ => ⟨S64x512x1039, .f32⟩
  | .hbm, ⟨1, _⟩ => ⟨S64x512x1369, .f32⟩
  | .hbm, ⟨2, _⟩ => ⟨S64x512x37x37, .f32⟩
  | .local _ .vmem, ⟨0, _⟩ => ⟨S8x256x1039, .f32⟩
  | .local _ .vmem, ⟨1, _⟩ => ⟨S8x256x1039, .f32⟩
  | .local _ .vmem, ⟨2, _⟩ => ⟨S8x256x1369, .f32⟩
  | .local _ .vmem, ⟨3, _⟩ => ⟨S8x256x1369, .f32⟩
  | _, _ => ⟨S64x512x1039, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x1039 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x1369 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S8x256x1039_S8x256x1039_0_0_0 : ∀ a, (![0, 0, 0] : Fin 3 → Nat) a + S8x256x1039.size a ≤ S8x256x1039.size a
  h_S8x256x1039 : 0 < S8x256x1039.numel
  slices_S8x256x37_o0_0_0_S8x256x18 : S8x256x37.Slices ![0, 0, 0] S8x256x18
  slices_S8x256x1039_o0_0_0_S8x256x19 : S8x256x1039.Slices ![0, 0, 0] S8x256x19
  slices_S8x256x37_o0_0_0_S8x256x17 : S8x256x37.Slices ![0, 0, 0] S8x256x17
  slices_S8x256x1039_o0_0_19_S8x256x20 : S8x256x1039.Slices ![0, 0, 19] S8x256x20
  slices_S8x256x37_o0_0_0_S8x256x16 : S8x256x37.Slices ![0, 0, 0] S8x256x16
  slices_S8x256x1039_o0_0_39_S8x256x21 : S8x256x1039.Slices ![0, 0, 39] S8x256x21
  slices_S8x256x37_o0_0_0_S8x256x15 : S8x256x37.Slices ![0, 0, 0] S8x256x15
  slices_S8x256x1039_o0_0_60_S8x256x22 : S8x256x1039.Slices ![0, 0, 60] S8x256x22
  slices_S8x256x37_o0_0_0_S8x256x14 : S8x256x37.Slices ![0, 0, 0] S8x256x14
  slices_S8x256x1039_o0_0_82_S8x256x23 : S8x256x1039.Slices ![0, 0, 82] S8x256x23
  slices_S8x256x37_o0_0_0_S8x256x13 : S8x256x37.Slices ![0, 0, 0] S8x256x13
  slices_S8x256x1039_o0_0_105_S8x256x24 : S8x256x1039.Slices ![0, 0, 105] S8x256x24
  slices_S8x256x37_o0_0_0_S8x256x12 : S8x256x37.Slices ![0, 0, 0] S8x256x12
  slices_S8x256x1039_o0_0_129_S8x256x25 : S8x256x1039.Slices ![0, 0, 129] S8x256x25
  slices_S8x256x37_o0_0_0_S8x256x11 : S8x256x37.Slices ![0, 0, 0] S8x256x11
  slices_S8x256x1039_o0_0_154_S8x256x26 : S8x256x1039.Slices ![0, 0, 154] S8x256x26
  slices_S8x256x37_o0_0_0_S8x256x10 : S8x256x37.Slices ![0, 0, 0] S8x256x10
  slices_S8x256x1039_o0_0_180_S8x256x27 : S8x256x1039.Slices ![0, 0, 180] S8x256x27
  slices_S8x256x37_o0_0_0_S8x256x9 : S8x256x37.Slices ![0, 0, 0] S8x256x9
  slices_S8x256x1039_o0_0_207_S8x256x28 : S8x256x1039.Slices ![0, 0, 207] S8x256x28
  slices_S8x256x37_o0_0_0_S8x256x8 : S8x256x37.Slices ![0, 0, 0] S8x256x8
  slices_S8x256x1039_o0_0_235_S8x256x29 : S8x256x1039.Slices ![0, 0, 235] S8x256x29
  slices_S8x256x37_o0_0_0_S8x256x7 : S8x256x37.Slices ![0, 0, 0] S8x256x7
  slices_S8x256x1039_o0_0_264_S8x256x30 : S8x256x1039.Slices ![0, 0, 264] S8x256x30
  slices_S8x256x37_o0_0_0_S8x256x6 : S8x256x37.Slices ![0, 0, 0] S8x256x6
  slices_S8x256x1039_o0_0_294_S8x256x31 : S8x256x1039.Slices ![0, 0, 294] S8x256x31
  slices_S8x256x37_o0_0_0_S8x256x5 : S8x256x37.Slices ![0, 0, 0] S8x256x5
  slices_S8x256x1039_o0_0_325_S8x256x32 : S8x256x1039.Slices ![0, 0, 325] S8x256x32
  slices_S8x256x37_o0_0_0_S8x256x4 : S8x256x37.Slices ![0, 0, 0] S8x256x4
  slices_S8x256x1039_o0_0_357_S8x256x33 : S8x256x1039.Slices ![0, 0, 357] S8x256x33
  slices_S8x256x37_o0_0_0_S8x256x3 : S8x256x37.Slices ![0, 0, 0] S8x256x3
  slices_S8x256x1039_o0_0_390_S8x256x34 : S8x256x1039.Slices ![0, 0, 390] S8x256x34
  slices_S8x256x37_o0_0_0_S8x256x2 : S8x256x37.Slices ![0, 0, 0] S8x256x2
  slices_S8x256x1039_o0_0_424_S8x256x35 : S8x256x1039.Slices ![0, 0, 424] S8x256x35
  slices_S8x256x37_o0_0_0_S8x256x1 : S8x256x37.Slices ![0, 0, 0] S8x256x1
  slices_S8x256x1039_o0_0_459_S8x256x36 : S8x256x1039.Slices ![0, 0, 459] S8x256x36
  slices_S8x256x1039_o0_0_495_S8x256x37 : S8x256x1039.Slices ![0, 0, 495] S8x256x37
  slices_S8x256x1039_o0_0_532_S8x256x36 : S8x256x1039.Slices ![0, 0, 532] S8x256x36
  slices_S8x256x1039_o0_0_568_S8x256x35 : S8x256x1039.Slices ![0, 0, 568] S8x256x35
  slices_S8x256x1039_o0_0_603_S8x256x34 : S8x256x1039.Slices ![0, 0, 603] S8x256x34
  slices_S8x256x1039_o0_0_637_S8x256x33 : S8x256x1039.Slices ![0, 0, 637] S8x256x33
  slices_S8x256x1039_o0_0_670_S8x256x32 : S8x256x1039.Slices ![0, 0, 670] S8x256x32
  slices_S8x256x1039_o0_0_702_S8x256x31 : S8x256x1039.Slices ![0, 0, 702] S8x256x31
  slices_S8x256x1039_o0_0_733_S8x256x30 : S8x256x1039.Slices ![0, 0, 733] S8x256x30
  slices_S8x256x1039_o0_0_763_S8x256x29 : S8x256x1039.Slices ![0, 0, 763] S8x256x29
  slices_S8x256x1039_o0_0_792_S8x256x28 : S8x256x1039.Slices ![0, 0, 792] S8x256x28
  slices_S8x256x1039_o0_0_820_S8x256x27 : S8x256x1039.Slices ![0, 0, 820] S8x256x27
  slices_S8x256x1039_o0_0_847_S8x256x26 : S8x256x1039.Slices ![0, 0, 847] S8x256x26
  slices_S8x256x1039_o0_0_873_S8x256x25 : S8x256x1039.Slices ![0, 0, 873] S8x256x25
  slices_S8x256x1039_o0_0_898_S8x256x24 : S8x256x1039.Slices ![0, 0, 898] S8x256x24
  slices_S8x256x1039_o0_0_922_S8x256x23 : S8x256x1039.Slices ![0, 0, 922] S8x256x23
  slices_S8x256x1039_o0_0_945_S8x256x22 : S8x256x1039.Slices ![0, 0, 945] S8x256x22
  slices_S8x256x1039_o0_0_967_S8x256x21 : S8x256x1039.Slices ![0, 0, 967] S8x256x21
  slices_S8x256x1039_o0_0_988_S8x256x20 : S8x256x1039.Slices ![0, 0, 988] S8x256x20
  slices_S8x256x1039_o0_0_1008_S8x256x19 : S8x256x1039.Slices ![0, 0, 1008] S8x256x19
  concatenates_S8x256x18_S8x256x19_S8x256x17_S8x256x20_S8x256x16_S8x256x21_S8x256x15_S8x256x22_S8x256x14_S8x256x23_S8x256x13_S8x256x24_S8x256x12_S8x256x25_S8x256x11_S8x256x26_S8x256x10_S8x256x27_S8x256x9_S8x256x28_S8x256x8_S8x256x29_S8x256x7_S8x256x30_S8x256x6_S8x256x31_S8x256x5_S8x256x32_S8x256x4_S8x256x33_S8x256x3_S8x256x34_S8x256x2_S8x256x35_S8x256x1_S8x256x36_S8x256x37_S8x256x36_S8x256x1_S8x256x35_S8x256x2_S8x256x34_S8x256x3_S8x256x33_S8x256x4_S8x256x32_S8x256x5_S8x256x31_S8x256x6_S8x256x30_S8x256x7_S8x256x29_S8x256x8_S8x256x28_S8x256x9_S8x256x27_S8x256x10_S8x256x26_S8x256x11_S8x256x25_S8x256x12_S8x256x24_S8x256x13_S8x256x23_S8x256x14_S8x256x22_S8x256x15_S8x256x21_S8x256x16_S8x256x20_S8x256x17_S8x256x19_S8x256x18_S8x256x1369_d2 : Shape.Concatenates (S8x256x18 :: S8x256x19 :: S8x256x17 :: S8x256x20 :: S8x256x16 :: S8x256x21 :: S8x256x15 :: S8x256x22 :: S8x256x14 :: S8x256x23 :: S8x256x13 :: S8x256x24 :: S8x256x12 :: S8x256x25 :: S8x256x11 :: S8x256x26 :: S8x256x10 :: S8x256x27 :: S8x256x9 :: S8x256x28 :: S8x256x8 :: S8x256x29 :: S8x256x7 :: S8x256x30 :: S8x256x6 :: S8x256x31 :: S8x256x5 :: S8x256x32 :: S8x256x4 :: S8x256x33 :: S8x256x3 :: S8x256x34 :: S8x256x2 :: S8x256x35 :: S8x256x1 :: S8x256x36 :: S8x256x37 :: S8x256x36 :: S8x256x1 :: S8x256x35 :: S8x256x2 :: S8x256x34 :: S8x256x3 :: S8x256x33 :: S8x256x4 :: S8x256x32 :: S8x256x5 :: S8x256x31 :: S8x256x6 :: S8x256x30 :: S8x256x7 :: S8x256x29 :: S8x256x8 :: S8x256x28 :: S8x256x9 :: S8x256x27 :: S8x256x10 :: S8x256x26 :: S8x256x11 :: S8x256x25 :: S8x256x12 :: S8x256x24 :: S8x256x13 :: S8x256x23 :: S8x256x14 :: S8x256x22 :: S8x256x15 :: S8x256x21 :: S8x256x16 :: S8x256x20 :: S8x256x17 :: S8x256x19 :: S8x256x18 :: []) S8x256x1369 2
  inb_S8x256x1369_S8x256x1369_0_0_0 : ∀ a, (![0, 0, 0] : Fin 3 → Nat) a + S8x256x1369.size a ≤ S8x256x1369.size a
  h_S8x256x1369 : 0 < S8x256x1369.numel
  shapeCasts_S64x512x1369_S64x512x37x37 : S64x512x1369.ShapeCasts S64x512x37x37
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x1039.size a ≤ S64x512x1039.size a
  hwx0_0 : ∀ i : grid0.Coords, EltTy.bits .f32 = 32 ∨ (Rect.block (s := S64x512x1039) S8x256x1039.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x1369.size a ≤ S64x512x1369.size a
  hwx0_1 : ∀ i : grid0.Coords, EltTy.bits .f32 = 32 ∨ (Rect.block (s := S64x512x1369) S8x256x1369.size (cc0_transform_1 i) (hinb0_1 i)).WholeWords (EltTy.packing .f32)

variable [Facts₀]

abbrev win0_0 : Pipeline.Window sig grid0 :=
  Pipeline.Window.ofSpec (Memref.whole main_arg0) S8x256x1039.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x256x1369.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x512x1039 : Shape := ⟨3, ![64, 512, 1039]⟩
abbrev S37x37 : Shape := ⟨2, ![37, 37]⟩
abbrev S64x512x1027 : Shape := ⟨3, ![64, 512, 1027]⟩
abbrev S_ : Shape := ⟨0, ![]⟩
abbrev S64x512x1 : Shape := ⟨3, ![64, 512, 1]⟩
abbrev S64x512x1028 : Shape := ⟨3, ![64, 512, 1028]⟩
abbrev S37x37x1 : Shape := ⟨3, ![37, 37, 1]⟩
abbrev S1 : Shape := ⟨1, ![1]⟩
abbrev S1x1x1 : Shape := ⟨3, ![1, 1, 1]⟩
abbrev S64x512x37x37 : Shape := ⟨4, ![64, 512, 37, 37]⟩

abbrev nBuf : Space → Nat
  | .hbm => 29
  | .vmem => 0
  | .smem => 0
  | _ => 0

abbrev bufTy : (tb : Table) → Fin (tcTables nBuf tb) → BufTy
  | .hbm, ⟨0, _⟩ => ⟨S64x512x1039, .f32⟩
  | .hbm, ⟨1, _⟩ => ⟨S37x37, .i32⟩
  | .hbm, ⟨2, _⟩ => ⟨S64x512x1027, .f32⟩
  | .hbm, ⟨3, _⟩ => ⟨S_, .f32⟩
  | .hbm, ⟨4, _⟩ => ⟨S64x512x1, .f32⟩
  | .hbm, ⟨5, _⟩ => ⟨S64x512x1028, .f32⟩
  | .hbm, ⟨6, _⟩ => ⟨S_, .i32⟩
  | .hbm, ⟨7, _⟩ => ⟨S37x37, .i32⟩
  | .hbm, ⟨8, _⟩ => ⟨S37x37, .i1⟩
  | .hbm, ⟨9, _⟩ => ⟨S_, .i32⟩
  | .hbm, ⟨10, _⟩ => ⟨S37x37, .i32⟩
  | .hbm, ⟨11, _⟩ => ⟨S37x37, .i32⟩
  | .hbm, ⟨12, _⟩ => ⟨S37x37, .i32⟩
  | .hbm, ⟨13, _⟩ => ⟨S37x37x1, .i32⟩
  | .hbm, ⟨14, _⟩ => ⟨S1, .i32⟩
  | .hbm, ⟨15, _⟩ => ⟨S_, .i32⟩
  | .hbm, ⟨16, _⟩ => ⟨S37x37x1, .i32⟩
  | .hbm, ⟨17, _⟩ => ⟨S37x37x1, .i1⟩
  | .hbm, ⟨18, _⟩ => ⟨S1x1x1, .i32⟩
  | .hbm, ⟨19, _⟩ => ⟨S37x37x1, .i32⟩
  | .hbm, ⟨20, _⟩ => ⟨S37x37x1, .i1⟩
  | .hbm, ⟨21, _⟩ => ⟨S37x37x1, .i1⟩
  | .hbm, ⟨22, _⟩ => ⟨S_, .i1⟩
  | .hbm, ⟨23, _⟩ => ⟨S37x37, .i1⟩
  | .hbm, ⟨24, _⟩ => ⟨S64x512x37x37, .f32⟩
  | .hbm, ⟨25, _⟩ => ⟨S64x512x37x37, .i1⟩
  | .hbm, ⟨26, _⟩ => ⟨S_, .f32⟩
  | .hbm, ⟨27, _⟩ => ⟨S64x512x37x37, .f32⟩
  | .hbm, ⟨28, _⟩ => ⟨S64x512x37x37, .f32⟩
  | _, _ => ⟨S64x512x1039, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v3 : Ref sig .tc := ⟨.hbm, 28, rfl⟩

abbrev nD : Nat := 1
abbrev τ : Topo := Topo.v7x

variable {F : FTy → Type} [FloatOps F]

class Facts₀ : Prop where
  slices_S64x512x1039_S64x512x1027_0_0_0 : S64x512x1039.Slices ![0, 0, 0] S64x512x1027
  bcast_S_S64x512x1 : S_.BroadcastsInDim S64x512x1 (![] : Fin 0 → Fin S64x512x1.rank)
  concatenates_S64x512x1027_S64x512x1_S64x512x1028_d2 : Shape.Concatenates [S64x512x1027, S64x512x1] S64x512x1028 2
  bcast_S_S37x37 : S_.BroadcastsInDim S37x37 (![] : Fin 0 → Fin S37x37.rank)
  bcast_S37x37_S37x37x1_0_1 : S37x37.BroadcastsInDim S37x37x1 (![0, 1] : Fin 2 → Fin S37x37x1.rank)
  bcast_S_S37x37x1 : S_.BroadcastsInDim S37x37x1 (![] : Fin 0 → Fin S37x37x1.rank)
  bcast_S1_S1x1x1_2 : S1.BroadcastsInDim S1x1x1 (![2] : Fin 1 → Fin S1x1x1.rank)
  bcast_S1x1x1_S37x37x1_0_1_2 : S1x1x1.BroadcastsInDim S37x37x1 (![0, 1, 2] : Fin 3 → Fin S37x37x1.rank)
  reducesTo_S37x37x1_S37x37_d2 : S37x37x1.ReducesTo [2] S37x37
  h_S_ : 0 < S_.numel
  bcast_S37x37_S64x512x37x37_2_3 : S37x37.BroadcastsInDim S64x512x37x37 (![2, 3] : Fin 2 → Fin S64x512x37x37.rank)
  bcast_S_S64x512x37x37 : S_.BroadcastsInDim S64x512x37x37 (![] : Fin 0 → Fin S64x512x37x37.rank)
  gather_S64x512x1028_S37x37x1_S64x512x37x37_01_2_n_n_2_2_645121_wf : GatherDims.WF S64x512x1028 S37x37x1 S64x512x37x37 [0, 1] [2] [] [2] [] 2 ![64, 512, 1]

variable [Facts₀]

def gather_S64x512x1028_S37x37x1_S64x512x37x37_01_2_n_n_2_2_645121 : GatherDims S64x512x1028 S37x37x1 S64x512x37x37 where
  offsetDims := [0, 1]
  collapsedSliceDims := [2]
  operandBatchingDims := []
  startIndicesBatchingDims := []
  startIndexMap := [2]
  indexVectorDim := 2
  sliceSizes := ![64, 512, 1]
  wf := gather_S64x512x1028_S37x37x1_S64x512x37x37_01_2_n_n_2_2_645121_wf

class Facts : Prop extends Facts₀ where

variable [Facts]
-- ==== Proof.LibConcatPieces.lean ====
/-
  A concatenation along an axis, read as ONE function of the result index.

  `concatenate t a xs h` lays the pieces `xs` end to end along axis `a`. If a function `G` of the result index
  restricts, on the span each piece occupies, to that piece (`Restricts`: piece by piece, the position where the
  piece starts accumulated along the list), then the concatenation IS `G` (`concatenate_eq_of_restricts`) — any
  number of pieces, any extents, any rank. For a literal list the hypothesis unfolds to one conjunct per piece.

  `slice_piece`: the conjunct of a piece that is a band `[off, off + N)` of the last axis of a rank-3 array `x`
  (a `vector.extract_strided_slice` with zero offsets on the two leading axes), from the statement that `G` at
  position `pre + k` is `x` at position `off + k`.
-/
import Idealize.ShloMosaic.Lib.Pipeline.Value
import Idealize.ShloMosaic.Lib.ValueIdx

namespace Idealize.ShloMosaic.ConcatPieces

open Idealize.ShloMosaic Idealize.ShloMosaic.ValueIdx

variable {α : Type}

/-- Where `c` falls among the extents `ns` laid end to end: some piece `k` starts at or before `c` and ends after it. -/
theorem exists_span : ∀ (ns : List Nat) (c : Nat), c < ns.sum →
    ∃ (k : Nat) (hk : k < ns.length), (ns.take k).sum ≤ c ∧ c < (ns.take k).sum + ns[k]
  | [], c, h => absurd h (by simp)
  | n :: ns, c, h => by
    by_cases hc : c < n
    · exact ⟨0, Nat.zero_lt_succ _, by simp, by simpa using hc⟩
    · have h' : c - n < ns.sum := by rw [List.sum_cons] at h; omega
      obtain ⟨k, hk, lo, hi⟩ := exists_span ns (c - n) h'
      refine ⟨k + 1, Nat.succ_lt_succ hk, ?_, ?_⟩
      · simp only [List.take_succ_cons, List.sum_cons]; omega
      · simp only [List.take_succ_cons, List.sum_cons, List.getElem_cons_succ]; omega

/-- The extent, along axis `a` of the result shape `t`, of a piece of shape `s` (0 for a piece of another rank, which
    `Shape.Concatenates` excludes): the summand of `Shape.Concatenates`' total. -/
def extent (t : Shape) (a : Fin t.rank) (s : Shape) : Nat := if h : s.rank = t.rank then s.size (a.cast h.symm) else 0

/-- Every piece of `xs`, the first starting at position `pre` of axis `a` and each next one where the previous
    ends, is the restriction of `G` to its span: at a piece index `i` and a result index `j` with the same
    coordinates off the axis and `j a = start + i a`, the piece at `i` is `G j`. -/
def Restricts (t : Shape) (a : Fin t.rank) (G : t.Idx → α) : Nat → List ((s : Shape) × (s.Idx → α)) → Prop
  | _, [] => True
  | pre, p :: rest =>
    (∀ (hr : p.1.rank = t.rank) (i : p.1.Idx) (j : t.Idx),
        (∀ b : Fin p.1.rank, b.cast hr ≠ a → (i b).val = (j (b.cast hr)).val) →
        pre + (i (a.cast hr.symm)).val = (j a).val → p.2 i = G j)
    ∧ Restricts t a G (pre + extent t a p.1) rest

/-- The conjunct of piece `k`, its start the extents of the pieces before it. -/
theorem Restricts.get {t : Shape} {a : Fin t.rank} {G : t.Idx → α} :
    ∀ (xs : List ((s : Shape) × (s.Idx → α))) (pre : Nat), Restricts t a G pre xs →
      ∀ (k : Nat) (hk : k < xs.length) (hr : (xs[k]).1.rank = t.rank) (i : (xs[k]).1.Idx) (j : t.Idx),
        (∀ b : Fin (xs[k]).1.rank, b.cast hr ≠ a → (i b).val = (j (b.cast hr)).val) →
        pre + (((xs.take k).map (·.1)).map fun s => if h : s.rank = t.rank then s.size (a.cast h.symm) else 0).sum
            + (i (a.cast hr.symm)).val = (j a).val →
        (xs[k]).2 i = G j
  | [], _, _, k, hk, _, _, _, _, _ => absurd hk (Nat.not_lt_zero _)
  | p :: rest, pre, h, 0, _, hr, i, j, hi, ha => h.1 hr i j hi (by simpa using ha)
  | p :: rest, pre, h, k + 1, hk, hr, i, j, hi, ha =>
    Restricts.get rest _ h.2 k (Nat.lt_of_succ_lt_succ hk) hr i j hi (by
      simp only [List.take_succ_cons, List.map_cons, List.sum_cons] at ha
      rw [Nat.add_assoc pre]
      exact ha)

/-- **A concatenation whose pieces are the restrictions of one function is that function.** -/
theorem concatenate_eq_of_restricts {t : Shape} (a : Fin t.rank) (xs : List ((s : Shape) × (s.Idx → α)))
    (h : Shape.Concatenates (xs.map (·.1)) t a) (G : t.Idx → α) (hG : Restricts t a G 0 xs) :
    concatenate t a xs h = G := by
  funext j
  let f : Shape → Nat := fun s => if h : s.rank = t.rank then s.size (a.cast h.symm) else 0
  let ns : List Nat := (xs.map (·.1)).map f
  have hsum : (j a).val < ns.sum := by
    have e : ns.sum = t.size a := h.2.2
    rw [e]; exact (j a).isLt
  obtain ⟨k, hk, lo, hi⟩ := exists_span ns (j a).val hsum
  have hk' : k < xs.length := by simpa [ns] using hk
  have hmem : (xs[k]).1 ∈ xs.map (·.1) := List.mem_map.2 ⟨xs[k], List.getElem_mem hk', rfl⟩
  obtain ⟨hr, hoff⟩ := h.2.1 _ hmem
  have hnk : ns[k] = (xs[k]).1.size (a.cast hr.symm) := by
    have e1 : ns[k] = f ((xs.map (·.1))[k]'(by simpa using hk')) := List.getElem_map _
    rw [e1, List.getElem_map]
    exact dif_pos hr
  have htake : (((xs.take k).map (·.1)).map f).sum = (ns.take k).sum := by
    simp only [ns, List.map_take]
  let i : (xs[k]).1.Idx := fun b =>
    if hb : b.cast hr = a then
      ⟨(j a).val - (ns.take k).sum, by
        have e : b = a.cast hr.symm := Fin.ext (by simpa using congrArg Fin.val hb)
        subst e; rw [← hnk]; omega⟩
    else
      ⟨(j (b.cast hr)).val, by
        have e : (xs[k]).1.size b = t.size (b.cast hr) := hoff (b.cast hr) hb
        rw [e]; exact (j _).isLt⟩
  have hi' : ∀ b : Fin (xs[k]).1.rank, b.cast hr ≠ a → (i b).val = (j (b.cast hr)).val := fun b hb => by
    simp only [i, dif_neg hb]
  have hia : (i (a.cast hr.symm)).val = (j a).val - (ns.take k).sum := by
    have hb : (a.cast hr.symm).cast hr = a := Fin.ext rfl
    simp only [i, dif_pos hb]
  have ha' : (ns.take k).sum + (i (a.cast hr.symm)).val = (j a).val := by rw [hia]; omega
  rw [concatenate_apply_piece a xs h j k hk' (xs[k]).1 (xs[k]).2 rfl hr (ns.take k).sum htake i hi' ha']
  exact Restricts.get xs 0 hG k hk' hr i j hi' (by rw [Nat.zero_add]; exact htake ▸ ha')

/-- The conjunct of a piece that is the band `[off, off + N)` of the last axis of a rank-3 array `x`, laid at
    `[pre, pre + N)` of the result's last axis: it is `G`'s restriction as soon as `G` at last coordinate `pre + k`
    is `x` at last coordinate `off + k`, the two leading coordinates kept. -/
theorem slice_piece {A B M T : Nat} (N off pre : Nat) (x : (⟨3, ![A, B, M]⟩ : Shape).Idx → α)
    (G : (⟨3, ![A, B, T]⟩ : Shape).Idx → α)
    (hs : (⟨3, ![A, B, M]⟩ : Shape).Slices ![0, 0, off] ⟨3, ![A, B, N]⟩)
    (hG : ∀ (p : Fin A) (q : Fin B) (k : Nat) (_ : k < N) (hT : pre + k < T) (hM : off + k < M),
      G (ix3 p q ⟨pre + k, hT⟩) = x (ix3 p q ⟨off + k, hM⟩)) :
    ∀ (hr : (⟨3, ![A, B, N]⟩ : Shape).rank = (⟨3, ![A, B, T]⟩ : Shape).rank)
      (i : (⟨3, ![A, B, N]⟩ : Shape).Idx) (j : (⟨3, ![A, B, T]⟩ : Shape).Idx),
      (∀ b : Fin 3, b.cast hr ≠ (2 : Fin 3) → (i b).val = (j (b.cast hr)).val) →
      pre + (i ((2 : Fin 3).cast hr.symm)).val = (j 2).val →
      extractStridedSlice ⟨3, ![A, B, N]⟩ ![0, 0, off] x hs i = G j := by
  intro hr i j hi ha
  have h0 : (i 0).val = (j 0).val := hi 0 (Fin.ne_of_val_ne (show (0 : Nat) ≠ 2 by decide))
  have h1 : (i 1).val = (j 1).val := hi 1 (Fin.ne_of_val_ne (show (1 : Nat) ≠ 2 by decide))
  have h2 : pre + (i 2).val = (j 2).val := ha
  have hle : off + N ≤ M := hs.2 2
  have hiN : (i 2).val < N := (i 2).isLt
  have hjT : (j 2).val < T := (j 2).isLt
  have hj : j = ix3 (n0 := A) (n1 := B) (n2 := T) (j 0) (j 1) ⟨pre + (i 2).val, by omega⟩ := by
    funext a; apply Fin.ext
    match a with
    | ⟨0, _⟩ => rfl
    | ⟨1, _⟩ => rfl
    | ⟨2, _⟩ => exact h2.symm
  rw [hj, hG (j 0) (j 1) (i 2).val hiN (by omega) (by omega)]
  show x _ = x _
  congr 1; funext a; apply Fin.ext
  match a with
  | ⟨0, _⟩ => show 0 + (i 0).val = (j 0).val; omega
  | ⟨1, _⟩ => show 0 + (i 1).val = (j 1).val; omega
  | ⟨2, _⟩ => rfl

end Idealize.ShloMosaic.ConcatPieces
-- ==== Proof.Spec.lean ====
/-
  The specification both programs meet.

  The reference's constant table `idx : [37, 37]` of 32-bit words, read row-major as naturals, is `tbl`: entry
  `37 q + r` is the hexagon pixel shown at cell `(q, r)` of the parallelogram, or the sentinel 1027 at a corner cell no
  pixel covers. Every entry is at most 1027 (`tbl_le`, by evaluation of the 1369 entries).

  `spread z x` lays a row of pixels out over the 1369 cells: cell `n` holds `x` at pixel `tbl n`, or the padding value
  `z` at a sentinel cell — for any two leading extents, so that it serves a block as well as the whole array; and
  `grid z x` is the same seen as `[64, 512, 37, 37]`, cell `(q, r)` being position `37 q + r`.
-/
import proofs.«133798_j52304111731362_2_alg».proof.ReferenceIdeal
import Idealize.ShloMosaic.Lib.ValueIdx

namespace Cert.Hexa

open Idealize.ShloMosaic Idealize.ShloMosaic.ValueIdx

/-- Entry `n` of the lookup table, row-major, as a natural number. -/
def tbl (n : Nat) : Nat := (Cert.ReferenceIdeal.lit0t n).toNat

/-- Every entry is a pixel index below 1027 or the sentinel 1027. -/
theorem tbl_le : ∀ n : Fin 1369, tbl n.val ≤ 1027 := by decide +kernel

variable {α : Type}

/-- Cell `n` of the flattened parallelogram holds pixel `tbl n` of the row, or `z` at a sentinel cell. -/
def spread {A B : Nat} (z : α) (x : (⟨3, ![A, B, 1039]⟩ : Shape).Idx → α) : (⟨3, ![A, B, 1369]⟩ : Shape).Idx → α :=
  fun i => if h : tbl (i 2).val < 1027 then
      x (ix3 (n0 := A) (n1 := B) (n2 := 1039) (i 0) (i 1) ⟨tbl (i 2).val, by omega⟩)
    else z

/-- The parallelogram `[64, 512, 37, 37]`: cell `(q, r)` is position `37 q + r` of the flattened one. -/
def grid (z : α) (x : (⟨3, ![64, 512, 1039]⟩ : Shape).Idx → α) : (⟨4, ![64, 512, 37, 37]⟩ : Shape).Idx → α :=
  fun j => spread z x (ix3 (n0 := 64) (n1 := 512) (n2 := 1369) (j 0) (j 1) ⟨(j 2).val * 37 + (j 3).val, by
    have h2 : (j 2).val < 37 := (j 2).isLt
    have h3 : (j 3).val < 37 := (j 3).isLt
    omega⟩)

end Cert.Hexa
-- ==== Proof.KernelBlock.lean ====
/-
  What the kernel body leaves in its output block.

  The body loads its input block `x0 : [8, 256, 1039]`, cuts 37 bands out of its last axis (row `q` of the
  parallelogram is one contiguous run of pixels), cuts runs of zeros of the complementary lengths out of a zero
  row, and concatenates the 73 pieces along the last axis into `[8, 256, 1369]`. Piece by piece this is
  `spread 0 x0`: a band `[off, off + N)` laid at cells `[pre, pre + N)` agrees with the table there
  (`tbl (pre + k) = off + k`), and a run of zeros lies on sentinel cells (`tbl (pre + k) = 1027`); the 73 table
  facts are decided by evaluating the table.
-/
import proofs.«133798_j52304111731362_2_alg».proof.Proof.Gen.KernelIdeal.Frame
import proofs.«133798_j52304111731362_2_alg».proof.Proof.LibConcatPieces
import proofs.«133798_j52304111731362_2_alg».proof.Proof.Spec

noncomputable section

namespace Cert.Hexa.Kernel

open Cert.KernelIdeal Cert.KernelIdeal.Gen Cert.Hexa
open Idealize.ShloMosaic Idealize.ShloMosaic.ValueIdx Idealize.ShloMosaic.ConcatPieces

section Pieces
variable {α : Type}

/-- A band of pixels laid where the table names exactly those pixels is `spread`'s restriction there. -/
theorem data_piece {A B : Nat} (N off pre : Nat) (z : α) (x : (⟨3, ![A, B, 1039]⟩ : Shape).Idx → α)
    (hs : (⟨3, ![A, B, 1039]⟩ : Shape).Slices ![0, 0, off] ⟨3, ![A, B, N]⟩)
    (htab : ∀ k < N, tbl (pre + k) = off + k) (hoff : off + N ≤ 1027) :
    ∀ (hr : (⟨3, ![A, B, N]⟩ : Shape).rank = (⟨3, ![A, B, 1369]⟩ : Shape).rank)
      (i : (⟨3, ![A, B, N]⟩ : Shape).Idx) (j : (⟨3, ![A, B, 1369]⟩ : Shape).Idx),
      (∀ b : Fin 3, b.cast hr ≠ (2 : Fin 3) → (i b).val = (j (b.cast hr)).val) →
      pre + (i ((2 : Fin 3).cast hr.symm)).val = (j 2).val →
      extractStridedSlice ⟨3, ![A, B, N]⟩ ![0, 0, off] x hs i = spread z x j :=
  slice_piece N off pre x (spread z x) hs fun p q k hk hT hM => by
    have e : tbl (pre + k) = off + k := htab k hk
    have hlt : tbl ((ix3 (n0 := A) (n1 := B) (n2 := 1369) p q ⟨pre + k, hT⟩) 2).val < 1027 := by
      show tbl (pre + k) < 1027; omega
    unfold spread
    rw [dif_pos hlt]
    congr 1; funext a; apply Fin.ext
    match a with
    | ⟨0, _⟩ => rfl
    | ⟨1, _⟩ => rfl
    | ⟨2, _⟩ => exact e

/-- A run of the padding value laid on sentinel cells is `spread`'s restriction there. -/
theorem zero_piece {A B M : Nat} (N pre : Nat) (z : α) (x : (⟨3, ![A, B, 1039]⟩ : Shape).Idx → α)
    (hs : (⟨3, ![A, B, M]⟩ : Shape).Slices ![0, 0, 0] ⟨3, ![A, B, N]⟩)
    (htab : ∀ k < N, 1027 ≤ tbl (pre + k)) :
    ∀ (hr : (⟨3, ![A, B, N]⟩ : Shape).rank = (⟨3, ![A, B, 1369]⟩ : Shape).rank)
      (i : (⟨3, ![A, B, N]⟩ : Shape).Idx) (j : (⟨3, ![A, B, 1369]⟩ : Shape).Idx),
      (∀ b : Fin 3, b.cast hr ≠ (2 : Fin 3) → (i b).val = (j (b.cast hr)).val) →
      pre + (i ((2 : Fin 3).cast hr.symm)).val = (j 2).val →
      extractStridedSlice ⟨3, ![A, B, N]⟩ ![0, 0, 0] (broadcast ⟨3, ![A, B, M]⟩ z) hs i = spread z x j :=
  slice_piece N 0 pre (broadcast ⟨3, ![A, B, M]⟩ z) (spread z x) hs fun p q k hk hT hM => by
    have e : 1027 ≤ tbl (pre + k) := htab k hk
    have hge : ¬ tbl ((ix3 (n0 := A) (n1 := B) (n2 := 1369) p q ⟨pre + k, hT⟩) 2).val < 1027 := by
      show ¬ tbl (pre + k) < 1027; omega
    unfold spread
    rw [dif_neg hge]
    rfl

end Pieces

variable {F : FTy → Type} [FloatOps F]

theorem hz3 : (![0, 0, 0] : Fin 3 → Nat) = fun _ => 0 := funext fun a => by fin_cases a <;> rfl

set_option maxHeartbeats 1600000 in
/-- THE BLOCK: after the body the output block is `spread 0` of the input block. -/
theorem out_block (x0 : Vec F S8x256x1039 .f32) :
    out0_1 x0 = spread (FloatOps.ofBits .f32 0x00000000#32 : F .f32) x0 := by
  unfold out0_1
  rw [View.canon_unit_zero hz3]
  simp only [View.ld_unit_zero (S := S8x256x1039) hz3]
  unfold k0_pay1 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39 k0_pay40 k0_pay41 k0_pay42 k0_pay43 k0_pay44 k0_pay45 k0_pay46 k0_pay47 k0_pay48 k0_pay49 k0_pay50 k0_pay51 k0_pay52 k0_pay53 k0_pay54 k0_pay2
  dsimp only
  refine concatenate_eq_of_restricts _ _ _ _ ?_
  repeat' (first | exact trivial | refine And.intro ?_ ?_)
  any_goals (refine data_piece _ _ _ _ _ ?_ ?_ ?_ <;> (try dsimp only) <;> decide +kernel)
  all_goals (refine zero_piece (M := 37) _ _ _ _ ?_ ?_ <;> (try dsimp only) <;> decide +kernel)

end Cert.Hexa.Kernel

end
-- ==== Proof.KernelValue.lean ====
/-
  The kernel's result array.

  Grid point `t` stages block `(i, j)` of the input — rows `8 i … 8 i + 7`, columns `256 j … 256 j + 255`, the whole
  last axis — and writes back the same block of the output. `spread` acts on the last axis only, so `spread` of a block
  is the block of `spread` (`spread_block`); the sixteen blocks tile `[64, 512, 1369]`, so the array the region leaves
  is `spread 0` of the argument (`final`). The one host line after the region reshapes it to `[64, 512, 37, 37]`,
  cell `(q, r)` reading position `37 q + r`: `grid 0` of the argument (`run`).
-/
import proofs.«133798_j52304111731362_2_alg».proof.Proof.KernelBlock
import Idealize.ShloMosaic.Lib.Pipeline.Value
import Idealize.ShloMosaic.Lib.StableHlo.Run

noncomputable section

namespace Cert.Hexa.Kernel

open Cert.KernelIdeal Cert.KernelIdeal.Gen Cert.Hexa
open Idealize.ShloMosaic Idealize.ShloMosaic.TcCoe Idealize.SL.Sem Idealize.ShloMosaic.ValueIdx
open Idealize.ShloMosaic.Pipeline (Dat)

section Pure
variable {α : Type}

/-- `spread` of a block is the block of `spread`: for a block `xb` of `X` whose rows start at `8 i0` and columns at
    `256 i1` (the last axis whole), both for the input's embedding `e0` and the output's `e1`. -/
theorem spread_block (z : α) (X : (⟨3, ![64, 512, 1039]⟩ : Shape).Idx → α) (xb : (⟨3, ![8, 256, 1039]⟩ : Shape).Idx → α)
    (e0 : (⟨3, ![8, 256, 1039]⟩ : Shape).Idx → (⟨3, ![64, 512, 1039]⟩ : Shape).Idx)
    (e1 : (⟨3, ![8, 256, 1369]⟩ : Shape).Idx → (⟨3, ![64, 512, 1369]⟩ : Shape).Idx)
    (i0 i1 : Nat)
    (h00 : ∀ y, (e0 y 0).val = i0 * 8 + (y 0).val) (h01 : ∀ y, (e0 y 1).val = i1 * 256 + (y 1).val)
    (h02 : ∀ y, (e0 y 2).val = (y 2).val)
    (h10 : ∀ y, (e1 y 0).val = i0 * 8 + (y 0).val) (h11 : ∀ y, (e1 y 1).val = i1 * 256 + (y 1).val)
    (h12 : ∀ y, (e1 y 2).val = (y 2).val)
    (hx : ∀ y, xb y = X (e0 y)) (y : (⟨3, ![8, 256, 1369]⟩ : Shape).Idx) :
    spread z xb y = spread z X (e1 y) := by
  have e : (e1 y 2).val = (y 2).val := h12 y
  unfold spread
  by_cases h : tbl (y 2).val < 1027
  · have h' : tbl (e1 y 2).val < 1027 := by rw [e]; exact h
    rw [dif_pos h, dif_pos h', hx]
    congr 1; funext a; apply Fin.ext
    match a with
    | ⟨0, _⟩ => exact (h00 _).trans (h10 y).symm
    | ⟨1, _⟩ => exact (h01 _).trans (h11 y).symm
    | ⟨2, _⟩ => exact (h02 _).trans (by show tbl (y 2).val = tbl (e1 y 2).val; rw [e])
  · have h' : ¬ tbl (e1 y 2).val < 1027 := by rw [e]; exact h
    rw [dif_neg h, dif_neg h']

/-- The reshape `[64, 512, 1369] → [64, 512, 37, 37]` of `spread` is `grid`: cell `(q, r)` is position `37 q + r`. -/
theorem shapeCast_spread (z : α) (X : (⟨3, ![64, 512, 1039]⟩ : Shape).Idx → α)
    (h : (⟨3, ![64, 512, 1369]⟩ : Shape).ShapeCasts ⟨4, ![64, 512, 37, 37]⟩) :
    shapeCast ⟨4, ![64, 512, 37, 37]⟩ (spread z X) h = grid z X := by
  funext j
  obtain ⟨a, b, q, r, rfl⟩ : ∃ (a : Fin 64) (b : Fin 512) (q r : Fin 37), j = ix4 a b q r :=
    ⟨j 0, j 1, j 2, j 3, eq_ix4 j⟩
  unfold grid
  refine shapeCast_apply _ h _ _ ?_
  rw [Shape.rowMajor_val_three, Shape.rowMajor_val_four]
  show (a.val * 512 + b.val) * 1369 + (q.val * 37 + r.val) = ((a.val * 512 + b.val) * 37 + q.val) * 37 + r.val
  omega

end Pure

variable {F : FTy → Type} [FloatOps F]
variable (m : (ℓ : Loc nD τ sig) → Buf (Elt F) ℓ) (ρ : Dev nD → PrngReg)

/-- The printed index maps, decided over the sixteen grid points: both windows move together over the two leading
    axes and stay at block 0 of the last. -/
theorem idx_facts : ∀ t : Fin cfg0.N,
    win0_0.index t (0 : Fin 3) = win0_1.index t (0 : Fin 3) ∧ win0_0.index t (1 : Fin 3) = win0_1.index t (1 : Fin 3)
    ∧ win0_0.index t (2 : Fin 3) = 0 ∧ win0_1.index t (2 : Fin 3) = 0 :=
  (by decide +kernel : ∀ t : Fin grid0.N, _)

/-- Every block `(q0, q1)` of the output is some point's. -/
theorem idx_onto : ∀ (q0 : Fin 8) (q1 : Fin 2), ∃ t : Fin cfg0.N, win0_1.index t = ![q0.val, q1.val, 0] :=
  (by decide +kernel : ∀ (q0 : Fin 8) (q1 : Fin 2), ∃ t : Fin grid0.N, win0_1.index t = ![q0.val, q1.val, 0])

/-- WHAT POINT `t` WRITES BACK is block `t` of `spread 0` of the argument array as the region finds it. -/
theorem flushed_eq (c : Dev nD) (t : Fin cfg0.N) :
    (dats m 0 c).flushed 1 t
      = ((cfg0.win 1).blk t).view.read (Elt F) (spread (FloatOps.ofBits .f32 0x00000000#32 : F .f32) (V m c main_arg0)) := by
  show (cfg0.win 1).cut (grid0.coords t) ((dats m 0 c).after 1 t) = _
  rw [after0_1, out_block]
  obtain ⟨e0, e1, e2, e3⟩ := idx_facts t
  funext y
  show spread (FloatOps.ofBits .f32 0x00000000#32 : F .f32) (iblk m c 0 t) y
    = spread (FloatOps.ofBits .f32 0x00000000#32 : F .f32) (V m c main_arg0) (((cfg0.win 1).blk t).view.emb y)
  exact spread_block (FloatOps.ofBits .f32 0x00000000#32 : F .f32) (V m c main_arg0) (iblk m c 0 t)
    (fun y' => ((cfg0.win 0).blk t).view.emb y') (fun y' => ((cfg0.win 1).blk t).view.emb y')
    (win0_1.index t (0 : Fin 3)) (win0_1.index t (1 : Fin 3))
    (fun y' => by show win0_0.index t (0 : Fin 3) * 8 + 1 * (y' 0).val = _; omega)
    (fun y' => by show win0_0.index t (1 : Fin 3) * 256 + 1 * (y' 1).val = _; omega)
    (fun y' => by show win0_0.index t (2 : Fin 3) * 1039 + 1 * (y' 2).val = _; omega)
    (fun y' => by show win0_1.index t (0 : Fin 3) * 8 + 1 * (y' 0).val = _; omega)
    (fun y' => by show win0_1.index t (1 : Fin 3) * 256 + 1 * (y' 1).val = _; omega)
    (fun y' => by show win0_1.index t (2 : Fin 3) * 1369 + 1 * (y' 2).val = _; omega)
    (fun y' => rfl) y

/-- An index of the array is in point `t`'s block iff each coordinate is in the block's range on its axis. -/
theorem mem_blk (t : Fin cfg0.N) (i : S64x512x1369.Idx) :
    i ∈ ((cfg0.win 1).blk t).view.set ↔ ∀ a : Fin 3, win0_1.index t a * S8x256x1369.size a ≤ (i a).val
      ∧ (i a).val < win0_1.index t a * S8x256x1369.size a + S8x256x1369.size a := by
  show i ∈ ((View.whole main_v0).slice (win0_1.rect t)).set ↔ _
  rw [View.set_slice_whole, Rect.mem_set_unit]
  exact Iff.rfl

/-- The sixteen blocks cover the array: row `r` is in block `r / 8`, column `c` in block `c / 256`. -/
theorem cover (i : S64x512x1369.Idx) :
    ∃ t : Fin cfg0.N, (cfg0.win 1).flush t = true ∧ i ∈ ((cfg0.win 1).blk t).view.set := by
  have hi0 : (i 0).val < 64 := (i 0).isLt
  have hi1 : (i 1).val < 512 := (i 1).isLt
  have hi2 : (i 2).val < 1369 := (i 2).isLt
  obtain ⟨t, ht⟩ := idx_onto ⟨(i 0).val / 8, by omega⟩ ⟨(i 1).val / 256, by omega⟩
  have q0 : win0_1.index t (0 : Fin 3) = (i 0).val / 8 := congrFun ht 0
  have q1 : win0_1.index t (1 : Fin 3) = (i 1).val / 256 := congrFun ht 1
  have q2 : win0_1.index t (2 : Fin 3) = 0 := congrFun ht 2
  refine ⟨t, flush0_1 t, ?_⟩
  rw [mem_blk]
  intro a
  match a with
  | ⟨0, _⟩ =>
    show win0_1.index t (0 : Fin 3) * 8 ≤ (i 0).val ∧ (i 0).val < win0_1.index t (0 : Fin 3) * 8 + 8; omega
  | ⟨1, _⟩ =>
    show win0_1.index t (1 : Fin 3) * 256 ≤ (i 1).val ∧ (i 1).val < win0_1.index t (1 : Fin 3) * 256 + 256; omega
  | ⟨2, _⟩ =>
    show win0_1.index t (2 : Fin 3) * 1369 ≤ (i 2).val ∧ (i 2).val < win0_1.index t (2 : Fin 3) * 1369 + 1369; omega

/-- THE ARRAY the region leaves: `spread 0` of the argument. -/
theorem final (c : Dev nD) :
    (dats m 0 c).arrAt 1 cfg0.N = spread (FloatOps.ofBits .f32 0x00000000#32 : F .f32) (V m c main_arg0) :=
  (dats m 0 c).arrAt_eq_of_cover 1 _ (fun t _ => flushed_eq m c t) cover

/-- The result buffer after the host line that follows the region: the reshape of that array, which is `grid 0`. -/
theorem tail_eq (c : Dev nD) :
    Pipeline.afterTail₀ cfgs (dats m) 0 (V0 m) [hostOps1] c main_v1
      = grid (FloatOps.ofBits .f32 0x00000000#32 : F .f32) (m ((c.tc : Thread nD τ).loc main_arg0)) := by
  have hw : Pipeline.withArrays (cfgs 0).spec c (V0 m c) (fun w => (dats m 0 c).arrAt w (cfgs 0).N) (Proc.devRef .tc main_v0)
      = spread (FloatOps.ofBits .f32 0x00000000#32 : F .f32) (V m c main_arg0) :=
    (Pipeline.withArrays_arr spec0 launch0.win.arr_inj c _ _ 1).trans (final m c)
  unfold Pipeline.afterTail₀
  show StableHlo.after hostOps1 _ (Proc.devRef .tc main_v1) = _
  after_results
  rw [hw]
  exact shapeCast_spread _ _ _

/-- The result buffer is an unscoped buffer that no window stages. -/
theorem v1_rest : main_v1 ∈ Pipeline.restRefs sig (cfgs 0).spec :=
  Pipeline.mem_restRefs_of main_v1 rfl (fun w => by fin_cases w <;> decide)

/-- THE KERNEL'S RUN, READ: every weakly fair execution terminates with the result at `grid 0` of the argument's
    launch contents and the argument unchanged. -/
theorem run : θ_run defs (onTc (τ := τ) (main (F := F))) ⟨m, fun _ => 0, ρ⟩ fun r => ∀ c : Dev nD,
      r.2.mem ((c.tc : Thread nD τ).loc main_v1)
        = grid (FloatOps.ofBits .f32 0x00000000#32 : F .f32) (m ((c.tc : Thread nD τ).loc main_arg0))
      ∧ r.2.mem ((c.tc : Thread nD τ).loc main_arg0) = m ((c.tc : Thread nD τ).loc main_arg0) :=
  (θ_run defs _ _).mono (fun r h c => ⟨((h c).2 main_v1 v1_rest).trans (tail_eq m c),
      ((h c).1 0).trans (((dats m 0 c).arrAt_in 0 rfl _).trans ((A_eq m c 0).trans (V_main_arg0 m c)))⟩)
    (run_main m ρ)

end Cert.Hexa.Kernel

end
-- ==== Proof.RefRun.lean ====
/-
  The reference's run, read back.

  @main is a straight line once `jnp.take`'s outlined function (and the `jnp.where` it calls to wrap negative indices)
  are unfolded at their call sites: the constant index table; the first 1027 pixels of the last axis; one padding
  zero appended (1028 slots); then the take — the indices wrapped (`i < 0 ? i + 1028 : i`), stood up as `[37, 37, 1]`,
  tested for `0 ≤ i ≤ 1027` (reduced by `and` over the unit axis), the gather along the last axis, and a select of the
  gathered value where the test holds and a NaN where it does not. `refOut x` is that composed term of the argument
  array `x`; `run` says every weakly fair execution terminates with the result buffer at `refOut` of the argument and
  the argument unchanged.
-/
import proofs.«133798_j52304111731362_2_alg».proof.Proof.Gen.ReferenceIdeal
import Idealize.ShloMosaic.Lib.StableHlo.Run

noncomputable section

namespace Cert.Hexa.Ref

open Cert.ReferenceIdeal Cert.ReferenceIdeal.Gen Idealize.ShloMosaic Idealize.ShloMosaic.TcCoe Idealize.SL.Sem
open Idealize.ShloMosaic.StableHlo

variable {F : FTy → Type} [FloatOps F]

/-- The constant table as an array `[37, 37]` of 32-bit words. -/
def idxTable : IVec S37x37 32 := fun i => lit0 (S37x37.rowMajor i)

/-- The indices as the gather reads them: a negative one wrapped by the padded extent 1028, then a unit axis added. -/
def wrapped : IVec S37x37x1 32 :=
  broadcastInDim S37x37x1 ![0, 1] bcast_S37x37_S37x37x1_0_1
    (select (cmpi .slt idxTable (broadcastInDim S37x37 ![] bcast_S_S37x37 (constantI S_ 32 0#32)))
      (addi idxTable (broadcastInDim S37x37 ![] bcast_S_S37x37 (constantI S_ 32 1028#32))) idxTable)

/-- "The index is in range": `0 ≤ i` and `i ≤ 1027`, reduced by `and` over the unit axis. -/
def inRange : IVec S37x37 1 :=
  Host.reduce IntOp.andi
    (andi (cmpi .sge wrapped (broadcastInDim S37x37x1 ![] bcast_S_S37x37x1 (constantI S_ 32 0#32)))
      (cmpi .sle wrapped (broadcastInDim S37x37x1 ![0, 1, 2] bcast_S1x1x1_S37x37x1_0_1_2
        (broadcastInDim S1x1x1 ![2] bcast_S1_S1x1x1_2 (constantI S1 32 1027#32)))))
    (constantI S_ 1 1#1) reducesTo_S37x37x1_S37x37_d2 h_S_

/-- The first 1027 pixels of every row with one padding zero appended. -/
def padded (x : FVec F S64x512x1039 .f32) : FVec F S64x512x1028 .f32 :=
  concatenate S64x512x1028 2
    [⟨S64x512x1027, extractStridedSlice S64x512x1027 ![0, 0, 0] x slices_S64x512x1039_S64x512x1027_0_0_0⟩,
     ⟨S64x512x1, broadcastInDim S64x512x1 ![] bcast_S_S64x512x1 (constant S_ .f32 0x00000000#32)⟩]
    concatenates_S64x512x1027_S64x512x1_S64x512x1028_d2

/-- The reference's result as one term of its argument. -/
def refOut (x : FVec F S64x512x1039 .f32) : FVec F S64x512x37x37 .f32 :=
  select (broadcastInDim S64x512x37x37 ![2, 3] bcast_S37x37_S64x512x37x37_2_3 inRange)
    (Host.gather gather_S64x512x1028_S37x37x1_S64x512x37x37_01_2_n_n_2_2_645121 (padded x) wrapped)
    (broadcastInDim S64x512x37x37 ![] bcast_S_S64x512x37x37 (constant S_ .f32 0x7FC00000#32))

/-- @main's 29 operations, in order: its own five, then the take's twenty-four over the call's buffers (the wrap's
    select among them). -/
abbrev ops : List (HloOp τ sig (Elt F)) :=
  [ nullary main_c (fun i => lit0 (S37x37.rowMajor i)),
    unary main_arg0 main_v0 ((extractStridedSlice S64x512x1027 ![0, 0, 0] · slices_S64x512x1039_S64x512x1027_0_0_0) : (⟨S64x512x1039, .f32⟩ : BufTy).Contents (Elt F) → (⟨S64x512x1027, .f32⟩ : BufTy).Contents (Elt F)),
    nullary main_cst (constant S_ .f32 0x00000000#32),
    unary main_cst main_v1 (broadcastInDim S64x512x1 ![] bcast_S_S64x512x1 : (⟨S_, .f32⟩ : BufTy).Contents (Elt F) → (⟨S64x512x1, .f32⟩ : BufTy).Contents (Elt F)),
    binary main_v0 main_v1 main_v2 ((fun a b => concatenate S64x512x1028 2 [⟨S64x512x1027, a⟩, ⟨S64x512x1, b⟩] concatenates_S64x512x1027_S64x512x1_S64x512x1028_d2) : (⟨S64x512x1027, .f32⟩ : BufTy).Contents (Elt F) → (⟨S64x512x1, .f32⟩ : BufTy).Contents (Elt F) → (⟨S64x512x1028, .f32⟩ : BufTy).Contents (Elt F)),
    TRef.nullary main_call0.c (constantI S_ 32 0#32),
    TRef.unary main_call0.c main_call0.v0 (broadcastInDim S37x37 ![] bcast_S_S37x37),
    TRef.binary (.of main_c) main_call0.v0 main_call0.v1 (cmpi .slt),
    TRef.nullary main_call0.c_0 (constantI S_ 32 1028#32),
    TRef.unary main_call0.c_0 main_call0.v2 (broadcastInDim S37x37 ![] bcast_S_S37x37),
    TRef.binary (.of main_c) main_call0.v2 main_call0.v3 addi,
    TRef.ternary main_call0.v1 main_call0.v3 (.of main_c) main_call0.call0.v0 select,
    TRef.unary main_call0.call0.v0 main_call0.v5 (broadcastInDim S37x37x1 ![0, 1] bcast_S37x37_S37x37x1_0_1),
    TRef.nullary main_call0.c_1 (constantI S1 32 1027#32),
    TRef.nullary main_call0.c_2 (constantI S_ 32 0#32),
    TRef.unary main_call0.c_2 main_call0.v6 (broadcastInDim S37x37x1 ![] bcast_S_S37x37x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S37x37x1 ![0, 1, 2] bcast_S1x1x1_S37x37x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S37x37x1_S37x37_d2 h_S_),
    TRef.binary (.of main_v2) main_call0.v5 main_call0.v13 (fun x i => Host.gather gather_S64x512x1028_S37x37x1_S64x512x37x37_01_2_n_n_2_2_645121 x i),
    TRef.unary main_call0.v12 main_call0.v14 (broadcastInDim S64x512x37x37 ![2, 3] bcast_S37x37_S64x512x37x37_2_3),
    TRef.nullary main_call0.cst (constant S_ .f32 0x7FC00000#32),
    TRef.unary main_call0.cst main_call0.v15 (broadcastInDim S64x512x37x37 ![] bcast_S_S64x512x37x37),
    TRef.ternary main_call0.v14 main_call0.v13 main_call0.v15 main_call0.v16 select ]

set_option maxRecDepth 2048 in
/-- @main is that straight line: the two functions' definitions unfolded at their calls, sequencing reassociated. -/
theorem main_eq (c : Dev nD) : main (F := F) c = seq ops := by
  simp only [main, fn_take.body, fn_where.body, seq, bind_assoc, pure_bind]

attribute [local irreducible] Host.reduce Host.gather concatenate extractStridedSlice broadcastInDim in
set_option maxRecDepth 8192 in
set_option maxHeartbeats 1600000 in
/-- The fold at the result buffer is `refOut` of the argument: each operation's result is read at its own buffer
    and passed over at every other, down to the argument (the reduce, the gather, the concatenation and the
    re-indexings kept folded meanwhile: the equation never looks inside them). -/
theorem out_eq (V : Valuation τ sig (Elt F)) :
    after ops V (main_v3 : DevRef τ sig) = refOut (V (main_arg0 : DevRef τ sig)) := by
  after_results_simp
  rfl

set_option maxRecDepth 8192 in
set_option maxHeartbeats 1600000 in
theorem arg0_eq (V : Valuation τ sig (Elt F)) :
    after ops V (main_arg0 : DevRef τ sig) = V (main_arg0 : DevRef τ sig) := by
  after_results_simp

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., nullary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- On every device, from any memory with zero counters: every weakly fair execution of @main terminates with the
    result at `refOut` of the argument's launch contents and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v3) = refOut (m ((c.tc : Thread nD τ).loc main_arg0))
      ∧ r.2.mem ((c.tc : Thread nD τ).loc main_arg0) = m ((c.tc : Thread nD τ).loc main_arg0) :=
  (θ_run defs _ _).mono (fun _ h c => ⟨(h c main_v3).trans (out_eq _), (h c main_arg0).trans (arg0_eq _)⟩)
    (run_seq scopedRefs_eq scopedSems_eq defs main (fun _ => ops) main_eq (fun _ => ops_sub) m ρ)

end Cert.Hexa.Ref

end
-- ==== Proof.LibTakeLastAxis.lean ====
/-
  `jnp.take(x, idx, axis=-1)` of a rank-3 array through a rank-2 table of indices, read at an index.

  What `x[..., idx]` of `x : [A, B, N]` at an integer table `idx : [R, C]` lowers to: a `stablehlo.gather` with
  offset_dims `[0, 1]`, collapsed_slice_dims `[2]`, start_index_map `[2]`, slice_sizes `[A, B, 1]` and
  index_vector_dim 2 over the indices as `[R, C, 1]`, into `[A, B, R, C]`. Result element `(a, b, r, c)` is `x` at
  `(a, b, idx[r, c, 0])`, the index read as a signed integer and clamped into `[0, N − 1]`
  (`gather_takeLast_apply`).

  `jnp.take`'s default mode also masks the result by "every index in range", a reduce by `and` of an `i1` array:
  `reduce_andi_of_all` — an `and`-reduce from 1 of an array that is 1 everywhere is 1 at every result index, any
  shapes, any axes.
-/
import Idealize.ShloMosaic.Lib.ValueIdx
import Idealize.ShloMosaic.PureOps.Reduce

namespace Idealize.ShloMosaic.TakeLastAxis

open Idealize.ShloMosaic Idealize.ShloMosaic.ValueIdx

variable {α : Type}

/-- Those dimension numbers for an operand `[A, B, N]`, start indices `[R, C, 1]` and result `[A, B, R, C]`; their
    conditions `wf` are decided on a program's literal shapes. -/
abbrev takeLastDims (A B N R C : Nat)
    (wf : GatherDims.WF ⟨3, ![A, B, N]⟩ ⟨3, ![R, C, 1]⟩ ⟨4, ![A, B, R, C]⟩ [0, 1] [2] [] [2] [] 2 ![A, B, 1]) :
    GatherDims ⟨3, ![A, B, N]⟩ ⟨3, ![R, C, 1]⟩ ⟨4, ![A, B, R, C]⟩ where
  offsetDims := [0, 1]
  collapsedSliceDims := [2]
  operandBatchingDims := []
  startIndicesBatchingDims := []
  startIndexMap := [2]
  indexVectorDim := 2
  sliceSizes := ![A, B, 1]
  wf := wf

/-- THE GATHER READ AT `(a, b, r, c)`: the operand at `(a, b, ·)` at the start index `idx[r, c, 0]`, read signed and
    clamped into `[0, N − 1]`. -/
theorem gather_takeLast_apply {A B N R C w : Nat} (hN : 0 < N)
    (wf : GatherDims.WF ⟨3, ![A, B, N]⟩ ⟨3, ![R, C, 1]⟩ ⟨4, ![A, B, R, C]⟩ [0, 1] [2] [] [2] [] 2 ![A, B, 1])
    (x : (⟨3, ![A, B, N]⟩ : Shape).Idx → α) (idx : IVec ⟨3, ![R, C, 1]⟩ w)
    (a : Fin A) (b : Fin B) (r : Fin R) (c : Fin C) :
    Host.gather (takeLastDims A B N R C wf) x idx (ix4 a b r c)
      = x (ix3 a b ⟨min (idx (ix3 r c (0 : Fin 1))).toInt.toNat (N - 1), by omega⟩) := by
  unfold Host.gather
  congr 1
  funext ax
  refine Fin.ext ?_
  show (takeLastDims A B N R C wf).start (ix4 a b r c) idx ax + (takeLastDims A B N R C wf).batchCoord (ix4 a b r c) ax
      + (takeLastDims A B N R C wf).offCoord (ix4 a b r c) ax = _
  rw [GatherDims.batchCoord_eq_zero _ _ _ List.not_mem_nil]
  match ax with
  | ⟨0, h0⟩ =>
    have hne : (⟨0, h0⟩ : Fin 3) ≠ 2 := Fin.ne_of_val_ne (show (0 : Nat) ≠ 2 by decide)
    have hns : (⟨0, h0⟩ : Fin 3) ∉ (takeLastDims A B N R C wf).startIndexMap := fun h => hne (List.mem_singleton.mp h)
    have hmem : (⟨0, h0⟩ : Fin 3) ∈ (takeLastDims A B N R C wf).sKept :=
      (GatherDims.mem_sKept _ _).mpr ⟨fun h => hne (List.mem_singleton.mp h), List.not_mem_nil⟩
    unfold GatherDims.start GatherDims.offCoord
    rw [dif_neg hns, dif_pos hmem]
    simp only [Nat.zero_add]
    rfl
  | ⟨1, h1⟩ =>
    have hne : (⟨1, h1⟩ : Fin 3) ≠ 2 := Fin.ne_of_val_ne (show (1 : Nat) ≠ 2 by decide)
    have hns : (⟨1, h1⟩ : Fin 3) ∉ (takeLastDims A B N R C wf).startIndexMap := fun h => hne (List.mem_singleton.mp h)
    have hmem : (⟨1, h1⟩ : Fin 3) ∈ (takeLastDims A B N R C wf).sKept :=
      (GatherDims.mem_sKept _ _).mpr ⟨fun h => hne (List.mem_singleton.mp h), List.not_mem_nil⟩
    unfold GatherDims.start GatherDims.offCoord
    rw [dif_neg hns, dif_pos hmem]
    simp only [Nat.zero_add]
    rfl
  | ⟨2, _⟩ =>
    rw [GatherDims.offCoord_eq_zero _ _ _ (fun h => ((GatherDims.mem_sKept _ _).mp h).1 (List.mem_singleton.mpr rfl))]
    simp only [Nat.add_zero]
    have hs : (⟨2, by decide⟩ : Fin 3) ∈ (takeLastDims A B N R C wf).startIndexMap := List.mem_singleton.mpr rfl
    unfold GatherDims.start
    rw [dif_pos hs]
    have hsi : (takeLastDims A B N R C wf).siIdx (ix4 a b r c)
        ⟨List.idxOf (⟨2, by decide⟩ : Fin 3) (takeLastDims A B N R C wf).startIndexMap, List.idxOf_lt_length_iff.2 hs⟩
        = ix3 r c (0 : Fin 1) := by
      funext d; refine Fin.ext ?_
      match d with
      | ⟨0, _⟩ => rfl
      | ⟨1, _⟩ => rfl
      | ⟨2, _⟩ => rfl
    rw [hsi]
    rfl

/-- An `and`-reduce, from an initial value 1, of an `i1` array that is 1 at every index is 1 at every result index. -/
theorem reduce_andi_of_all {s t u : Shape} {axes : List (Fin s.rank)} (x : s.Idx → BitVec 1) (init : u.Idx → BitVec 1)
    (h : s.ReducesTo axes t) (hu : 0 < u.numel) (hx : ∀ i, x i = 1#1) (hinit : ∀ i, init i = 1#1) (j : t.Idx) :
    Host.reduce IntOp.andi x init h hu j = 1#1 := by
  rw [Host.reduce_eq_foldl]
  generalize ((List.finRange s.numel).map s.rowMajor.symm).filter (fun i => h.drop i = j) = l
  rw [hinit]
  induction l with
  | nil => rfl
  | cons i l ih =>
    rw [List.foldl_cons, hx i]
    exact ih

end Idealize.ShloMosaic.TakeLastAxis
-- ==== Proof.RefValue.lean ====
/-
  The reference's term is the specification.

  Entry by entry of the table (decided by evaluating its 1369 words): wrapping a negative index changes nothing, the
  in-range test holds, and the gather's clamp of the index into `[0, 1027]` is the table entry itself. So at
  `(a, b, q, r)` the select takes the gathered value, which is the padded row at slot `tbl (37 q + r)`: the pixel of
  that index when it is below 1027, the appended zero at the sentinel 1027 — `grid 0 x`.
-/
import proofs.«133798_j52304111731362_2_alg».proof.Proof.RefRun
import proofs.«133798_j52304111731362_2_alg».proof.Proof.LibTakeLastAxis
import proofs.«133798_j52304111731362_2_alg».proof.Proof.Spec
import Idealize.ShloMosaic.Lib.Pipeline.Value

noncomputable section

namespace Cert.Hexa.Ref

open Cert.ReferenceIdeal Cert.ReferenceIdeal.Gen Cert.Hexa
open Idealize.ShloMosaic Idealize.ShloMosaic.ValueIdx Idealize.ShloMosaic.TakeLastAxis

/-- `jnp.take`'s wrap of one index word: a negative index counts from the end of the 1028 slots. -/
def wrapWord (w : BitVec 32) : BitVec 32 := Scalar.select (IntOp.cmpi .slt w 0#32) (IntOp.addi w 1028#32) w

/-- Every table entry, wrapped, passes the in-range test `0 ≤ i ∧ i ≤ 1027`. -/
theorem table_inRange : ∀ n : Fin 1369,
    IntOp.andi (IntOp.cmpi .sge (wrapWord (lit0 n)) 0#32) (IntOp.cmpi .sle (wrapWord (lit0 n)) 1027#32) = 1#1 := by
  decide +kernel

/-- Every table entry, wrapped, read signed and clamped into the 1028 slots, is the entry itself. -/
theorem table_clamp : ∀ n : Fin 1369, min (wrapWord (lit0 n)).toInt.toNat (1028 - 1) = tbl n.val := by
  decide +kernel

/-- The wrapped index array at `(q, r, 0)` is the wrapped table entry `37 q + r`. -/
theorem wrapped_ix (q r : Fin 37) :
    wrapped (ix3 q r (0 : Fin 1)) = wrapWord (lit0 ⟨q.val * 37 + r.val, by have := q.isLt; have := r.isLt; omega⟩) := by
  unfold wrapped
  rw [broadcastInDim_apply _ _ _ _ (ix2 q r) (fun a => by fin_cases a <;> rfl)]
  show wrapWord (idxTable (ix2 q r)) = _
  unfold idxTable
  congr 2
  apply Fin.ext
  rw [Shape.rowMajor_val_two]
  rfl

theorem wrapped_all (i : S37x37x1.Idx) : ∃ n : Fin 1369, wrapped i = wrapWord (lit0 n) := by
  obtain ⟨q, r, u, rfl⟩ : ∃ (q r : Fin 37) (u : Fin 1), i = ix3 q r u := ⟨i 0, i 1, i 2, eq_ix3 i⟩
  obtain rfl : u = 0 := Subsingleton.elim _ _
  exact ⟨_, wrapped_ix q r⟩

/-- The in-range mask is 1 at every cell. -/
theorem inRange_eq (j : S37x37.Idx) : inRange j = 1#1 := by
  unfold inRange
  refine reduce_andi_of_all _ _ _ _ (fun i => ?_) (fun _ => rfl) j
  obtain ⟨n, hn⟩ := wrapped_all i
  show IntOp.andi (IntOp.cmpi .sge (wrapped i) 0#32) (IntOp.cmpi .sle (wrapped i) 1027#32) = 1#1
  rw [hn]
  exact table_inRange n

variable {F : FTy → Type} [FloatOps F]

/-- The padded row at slot `k`: pixel `k` below 1027, the appended zero at 1027. -/
theorem padded_apply (x : FVec F S64x512x1039 .f32) (a : Fin 64) (b : Fin 512) (k : Fin 1028) :
    padded x (ix3 a b k)
      = if h : k.val < 1027 then x (ix3 a b ⟨k.val, by omega⟩) else (FloatOps.ofBits .f32 0x00000000#32 : F .f32) := by
  unfold padded
  split
  · next h =>
    rw [concatenate_pair_apply_left (t := S64x512x1028) (s₁ := S64x512x1027) (s₂ := S64x512x1) 2 _ _ _ (ix3 a b k) rfl (ix3 (n2 := 1027) a b ⟨k.val, h⟩)
      (fun b' => by match b' with | ⟨0, _⟩ => rfl | ⟨1, _⟩ => rfl | ⟨2, _⟩ => rfl)]
    show x _ = x _
    congr 1; funext a'; apply Fin.ext
    match a' with
    | ⟨0, _⟩ => exact Nat.zero_add _
    | ⟨1, _⟩ => exact Nat.zero_add _
    | ⟨2, _⟩ => exact Nat.zero_add _
  · next h =>
    have hk : k.val = 1027 := by have := k.isLt; omega
    rw [concatenate_pair_apply_right (t := S64x512x1028) (s₁ := S64x512x1027) (s₂ := S64x512x1) 2 _ _ _ (ix3 a b k) rfl rfl (ix3 (n2 := 1) a b (0 : Fin 1))
      (fun b' => by
        match b' with
        | ⟨0, _⟩ => exact fun _ => rfl
        | ⟨1, _⟩ => exact fun _ => rfl
        | ⟨2, _⟩ => exact fun hne => absurd (Fin.ext rfl) hne)
      (by show 0 + 1027 = k.val; omega)]
    rfl

/-- THE REFERENCE IS THE SPECIFICATION. -/
theorem refOut_eq (x : FVec F S64x512x1039 .f32) :
    refOut x = grid (FloatOps.ofBits .f32 0x00000000#32 : F .f32) x := by
  funext j
  obtain ⟨a, b, q, r, rfl⟩ : ∃ (a : Fin 64) (b : Fin 512) (q r : Fin 37), j = ix4 a b q r :=
    ⟨j 0, j 1, j 2, j 3, eq_ix4 j⟩
  have hn : q.val * 37 + r.val < 1369 := by have := q.isLt; have := r.isLt; omega
  have hclamp : min (wrapped (ix3 q r (0 : Fin 1))).toInt.toNat (1028 - 1) = tbl (q.val * 37 + r.val) := by
    rw [wrapped_ix]; exact table_clamp ⟨_, hn⟩
  have key : ∀ (k : Nat) (hk : k < 1028), k = tbl (q.val * 37 + r.val) →
      padded x (ix3 a b ⟨k, hk⟩) = grid (FloatOps.ofBits .f32 0x00000000#32 : F .f32) x (ix4 a b q r) := by
    intro k hk e
    subst e
    rw [padded_apply]
    rfl
  unfold refOut
  rw [select_apply, broadcastInDim_apply _ _ inRange (ix4 a b q r) (ix2 q r)
    (fun a' => by fin_cases a' <;> rfl), inRange_eq, select_one]
  rw [show gather_S64x512x1028_S37x37x1_S64x512x37x37_01_2_n_n_2_2_645121
      = takeLastDims 64 512 1028 37 37 gather_S64x512x1028_S37x37x1_S64x512x37x37_01_2_n_n_2_2_645121_wf from rfl,
    gather_takeLast_apply (by decide)]
  exact key _ _ hclamp

end Cert.Hexa.Ref

end
-- ==== Proof.lean ====
/-
  `Cert.Claim` for the hexagon-to-parallelogram kernel: a static lookup-table scatter with no arithmetic.

  Both programs lay the 1027 pixels of every row of `hexa : [64, 512, 1039]` out over the 37 × 37 cells of a
  parallelogram, cell `(q, r)` showing pixel `idx[q, r]` or the padding value 0 where the table holds the sentinel
  1027 (`Cert.Hexa.grid`, Proof/Spec.lean). The kernel does it by 37 contiguous copies interleaved with runs of zeros,
  concatenated per block and reshaped on the host (Proof/KernelBlock.lean, Proof/KernelValue.lean, over the generated
  frame run); the reference by one gather through the table from the row padded with one zero
  (Proof/RefRun.lean, Proof/RefValue.lean). Nothing is computed on the values, so the two results are equal for
  every input and the precondition is never opened. The three frames are the generated frame runs and the reference's
  run with its result dropped; the ideal pass rewrote nothing, so `preserves` is `True`.
-/
import proofs.«133798_j52304111731362_2_alg».proof.Defs
import proofs.«133798_j52304111731362_2_alg».proof.Proof.Gen.Kernel
import proofs.«133798_j52304111731362_2_alg».proof.Proof.Gen.Kernel.Skeleton
import proofs.«133798_j52304111731362_2_alg».proof.Proof.Gen.Kernel.Launch
import proofs.«133798_j52304111731362_2_alg».proof.Proof.Gen.Kernel.Points
import proofs.«133798_j52304111731362_2_alg».proof.Proof.Gen.Kernel.Frame
import proofs.«133798_j52304111731362_2_alg».proof.Proof.Gen.KernelIdeal
import proofs.«133798_j52304111731362_2_alg».proof.Proof.Gen.KernelIdeal.Skeleton
import proofs.«133798_j52304111731362_2_alg».proof.Proof.Gen.KernelIdeal.Launch
import proofs.«133798_j52304111731362_2_alg».proof.Proof.Gen.KernelIdeal.Points
import proofs.«133798_j52304111731362_2_alg».proof.Proof.Gen.KernelIdeal.Frame
import proofs.«133798_j52304111731362_2_alg».proof.Proof.Gen.ReferenceIdeal
import proofs.«133798_j52304111731362_2_alg».proof.Proof.Gen.Pre_finite_inputs
import proofs.«133798_j52304111731362_2_alg».proof.Proof.KernelValue
import proofs.«133798_j52304111731362_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.Hexa.Ref.run (F := Ideal) m ρ)

/-- The ideal pass rewrote no operation. -/
theorem preserves : Cert.preserves_Kernel_KernelIdeal := trivial

/-- Both runs end at `grid 0` of the (agreeing) argument arrays. -/
theorem algebraic : Cert.algebraic_KernelIdeal_ReferenceIdeal := by
  intro m ρ m' ρ' _ hagree
  refine ⟨_, Cert.Hexa.Kernel.run (F := Ideal) m ρ, ?_⟩
  refine (θ_run Cert.ReferenceIdeal.defs _ _).mono (fun _ h c => ⟨?_, (h c).2⟩)
    (Cert.Hexa.Ref.run (F := Ideal) m' ρ')
  rw [(h c).1, Cert.Hexa.Ref.refOut_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
